-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S2 : Shape := ⟨1, ![2]⟩
abbrev S64x64 : Shape := ⟨2, ![64, 64]⟩
abbrev S2x64x64 : Shape := ⟨3, ![2, 64, 64]⟩
abbrev S2x2x1600000 : Shape := ⟨3, ![2, 2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2x1600000 : S_.BroadcastsInDim S2x1600000 (![] : Fin 0 → Fin S2x1600000.rank)
  reducesTo_S2x1600000_S_d0_1 : S2x1600000.ReducesTo [0, 1] S_
  bcast_S_S100000 : S_.BroadcastsInDim S100000 (![] : Fin 0 → Fin S100000.rank)
  reducesTo_S100000_S_d0 : S100000.ReducesTo [0] S_
  bcast_S_S2 : S_.BroadcastsInDim S2 (![] : Fin 0 → Fin S2.rank)
  reducesTo_S2_S_d0 : S2.ReducesTo [0] S_
  bcast_S_S64x64 : S_.BroadcastsInDim S64x64 (![] : Fin 0 → Fin S64x64.rank)
  reducesTo_S64x64_S_d0_1 : S64x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_

variable [Facts]

def fn_part2 {F : FTy → Type} [FloatOps F] (main_arg7 : FVec F S2x64x64 .f32) (main_v33 : IVec S_ 1) : IVec S_ 1 :=
  let main_v34 : FVec F S2x64x64 .f32 := Host.absf main_arg7
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  main_v38

def fn_part1 {F : FTy → Type} [FloatOps F] (main_arg4 : FVec F S2 .f32) (main_arg5 : FVec F S64x64 .f32) (main_arg6 : FVec F S2x64x64 .f32) (main_arg7 : FVec F S2x64x64 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S2x64x64 .f32 := Host.absf main_arg6
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg7 main_v33

def fn {F : FTy → Type} [FloatOps F] (main_arg0 : FVec F S100000x64 .f32) (main_arg1 : FVec F S2x1600000 .f32) (main_arg2 : FVec F S100000 .f32) (main_arg3 : FVec F S100000 .f32) (main_arg4 : FVec F S2 .f32) (main_arg5 : FVec F S64x64 .f32) (main_arg6 : FVec F S2x64x64 .f32) (main_arg7 : FVec F S2x64x64 .f32) (main_arg8 : IVec S2x2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S2x1600000 .f32 := Host.absf main_arg1
  let main_cst_0 : FVec F S_ .f32 := constant S_ .f32 0x7F800000#32
  let main_v5 : FVec F S2x1600000 .f32 := broadcastInDim S2x1600000 ![] bcast_S_S2x1600000 main_cst_0
  let main_v6 : IVec S2x1600000 1 := cmpf .olt main_v4 main_v5
  let main_c_1 : IVec S_ 1 := constantI S_ 1 1#1
  let main_v7 : IVec S_ 1 := (fun x v => Host.reduce IntOp.andi x v reducesTo_S2x1600000_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg3
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg4 main_arg5 main_arg6 main_arg7 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S2 : Shape := ⟨1, ![2]⟩
abbrev S64x64 : Shape := ⟨2, ![64, 64]⟩
abbrev S2x64x64 : Shape := ⟨3, ![2, 64, 64]⟩
abbrev S2x2x1600000 : Shape := ⟨3, ![2, 2, 1600000]⟩
abbrev S_ : Shape := ⟨0, ![]⟩
abbrev S1 : Shape := ⟨1, ![1]⟩
abbrev S100000x1 : Shape := ⟨2, ![100000, 1]⟩
abbrev S1x64x64 : Shape := ⟨3, ![1, 64, 64]⟩
abbrev S64x128 : Shape := ⟨2, ![64, 128]⟩
abbrev S100000x128 : Shape := ⟨2, ![100000, 128]⟩
abbrev S5000x64 : Shape := ⟨2, ![5000, 64]⟩
abbrev S5000x128 : Shape := ⟨2, ![5000, 128]⟩
abbrev S1x1x1600000 : Shape := ⟨3, ![1, 1, 1600000]⟩
abbrev S1600000 : Shape := ⟨1, ![1600000]⟩
abbrev S1x1600000 : Shape := ⟨2, ![1, 1600000]⟩
abbrev S1600000x1 : Shape := ⟨2, ![1600000, 1]⟩
abbrev S1600000x64 : Shape := ⟨2, ![1600000, 64]⟩

abbrev nBuf : Space → Nat
  | .hbm => 141
  | .vmem => 17
  | .smem => 0
  | _ => 0

abbrev hbmTy0_0 (i : Nat) : BufTy := match i % 128 with
  | 0 => ⟨S100000x64, .f32⟩
  | 1 => ⟨S2x1600000, .f32⟩
  | 2 => ⟨S100000, .f32⟩
  | 3 => ⟨S100000, .f32⟩
  | 4 => ⟨S2, .f32⟩
  | 5 => ⟨S64x64, .f32⟩
  | 6 => ⟨S2x64x64, .f32⟩
  | 7 => ⟨S2x64x64, .f32⟩
  | 8 => ⟨S2x2x1600000, .i32⟩
  | 9 => ⟨S_, .f32⟩
  | 10 => ⟨S_, .f32⟩
  | 11 => ⟨S_, .f32⟩
  | 12 => ⟨S_, .f32⟩
  | 13 => ⟨S1, .f32⟩
  | 14 => ⟨S2, .f32⟩
  | 15 => ⟨S2, .f32⟩
  | 16 => ⟨S2, .f32⟩
  | 17 => ⟨S_, .f32⟩
  | 18 => ⟨S_, .f32⟩
  | 19 => ⟨S1, .f32⟩
  | 20 => ⟨S2, .f32⟩
  | 21 => ⟨S2, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000x1, .f32⟩
  | 29 => ⟨S100000x64, .f32⟩
  | 30 => ⟨S100000x64, .f32⟩
  | 31 => ⟨S100000x1, .f32⟩
  | 32 => ⟨S100000x64, .f32⟩
  | 33 => ⟨S100000x64, .f32⟩
  | 34 => ⟨S1x64x64, .f32⟩
  | 35 => ⟨S64x64, .f32⟩
  | 36 => ⟨S1x64x64, .f32⟩
  | 37 => ⟨S64x64, .f32⟩
  | 38 => ⟨S64x128, .f32⟩
  | 39 => ⟨S1x64x64, .f32⟩
  | 40 => ⟨S64x64, .f32⟩
  | 41 => ⟨S1x64x64, .f32⟩
  | 42 => ⟨S64x64, .f32⟩
  | 43 => ⟨S64x128, .f32⟩
  | 44 => ⟨S100000x128, .f32⟩
  | 45 => ⟨S100000x128, .f32⟩
  | 46 => ⟨S_, .f32⟩
  | 47 => ⟨S100000x64, .f32⟩
  | 48 => ⟨S1x1x1600000, .i32⟩
  | 49 => ⟨S1600000, .i32⟩
  | 50 => ⟨S1x1x1600000, .i32⟩
  | 51 => ⟨S1600000, .i32⟩
  | 52 => ⟨S1x1600000, .f32⟩
  | 53 => ⟨S1600000, .f32⟩
  | 54 => ⟨S100000x64, .f32⟩
  | 55 => ⟨S100000x64, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x64, .f32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S1600000x1, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1600000x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S1, .f32⟩
  | 89 => ⟨S_, .f32⟩
  | 90 => ⟨S100000x64, .f32⟩
  | 91 => ⟨S100000x64, .f32⟩
  | 92 => ⟨S100000x64, .f32⟩
  | 93 => ⟨S100000x64, .f32⟩
  | 94 => ⟨S1x1x1600000, .i32⟩
  | 95 => ⟨S1600000, .i32⟩
  | 96 => ⟨S1x1x1600000, .i32⟩
  | 97 => ⟨S1600000, .i32⟩
  | 98 => ⟨S1x1600000, .f32⟩
  | 99 => ⟨S1600000, .f32⟩
  | 100 => ⟨S100000x64, .f32⟩
  | 101 => ⟨S100000x64, .f32⟩
  | 102 => ⟨S1600000x1, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S1600000x64, .f32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S1600000x1, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S100000x64, .f32⟩

abbrev hbmTy0_1 (i : Nat) : BufTy := match i % 128 with
  | 0 => ⟨S1600000x64, .f32⟩
  | 1 => ⟨S1600000x64, .f32⟩
  | 2 => ⟨S_, .f32⟩
  | 3 => ⟨S100000x64, .f32⟩
  | 4 => ⟨S1600000x1, .i32⟩
  | 5 => ⟨S100000x64, .f32⟩
  | 6 => ⟨S1, .f32⟩
  | 7 => ⟨S_, .f32⟩
  | 8 => ⟨S100000x64, .f32⟩
  | 9 => ⟨S100000x64, .f32⟩
  | 10 => ⟨S100000x64, .f32⟩
  | 11 => ⟨S100000x64, .f32⟩
  | 12 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c : Ref sig .tc := ⟨.hbm, 57, rfl⟩
abbrev main_v41 : Ref sig .tc := ⟨.hbm, 58, rfl⟩
abbrev main_v42 : Ref sig .tc := ⟨.hbm, 59, rfl⟩
abbrev main_c_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_7 : Ref sig .tc := ⟨.hbm, 73, rfl⟩
abbrev main_v54 : Ref sig .tc := ⟨.hbm, 74, rfl⟩
abbrev main_v55 : Ref sig .tc := ⟨.hbm, 75, rfl⟩
abbrev main_c_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c_10 : Ref sig .tc := ⟨.hbm, 103, rfl⟩
abbrev main_v81 : Ref sig .tc := ⟨.hbm, 104, rfl⟩
abbrev main_v82 : Ref sig .tc := ⟨.hbm, 105, rfl⟩
abbrev main_c_11 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_12 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_c_13 : Ref sig .tc := ⟨.hbm, 119, rfl⟩
abbrev main_v94 : Ref sig .tc := ⟨.hbm, 120, rfl⟩
abbrev main_v95 : Ref sig .tc := ⟨.hbm, 121, rfl⟩
abbrev main_c_14 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_15 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  reducesTo_S2_S_d0 : S2.ReducesTo [0] S_
  h_S_ : 0 < S_.numel
  bcast_S_S1 : S_.BroadcastsInDim S1 (![] : Fin 0 → Fin S1.rank)
  bcast_S1_S2_0 : S1.BroadcastsInDim S2 (![0] : Fin 1 → Fin S2.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  concatenates_S64x64_S64x64_S64x128_d1 : Shape.Concatenates [S64x64, S64x64] S64x128 1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  bcast_S_S100000x64 : S_.BroadcastsInDim S100000x64 (![] : Fin 0 → Fin S100000x64.rank)
  slices_S2x2x1600000_S1x1x1600000_0_0_0 : S2x2x1600000.Slices ![0, 0, 0] S1x1x1600000
  shapeCasts_S1x1x1600000_S1600000 : S1x1x1600000.ShapeCasts S1600000
  slices_S2x2x1600000_S1x1x1600000_0_1_0 : S2x2x1600000.Slices ![0, 1, 0] S1x1x1600000
  slices_S2x1600000_S1x1600000_0_0 : S2x1600000.Slices ![0, 0] S1x1600000
  shapeCasts_S1x1600000_S1600000 : S1x1600000.ShapeCasts S1600000
  slices_S100000x128_S100000x64_0_0 : S100000x128.Slices ![0, 0] S100000x64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  slices_S2_S1_0 : S2.Slices ![0] S1
  shapeCasts_S1_S_ : S1.ShapeCasts S_
  slices_S2x2x1600000_S1x1x1600000_1_0_0 : S2x2x1600000.Slices ![1, 0, 0] S1x1x1600000
  slices_S2x2x1600000_S1x1x1600000_1_1_0 : S2x2x1600000.Slices ![1, 1, 0] S1x1x1600000
  slices_S2x1600000_S1x1600000_1_0 : S2x1600000.Slices ![1, 0] S1x1600000
  slices_S100000x128_S100000x64_0_64 : S100000x128.Slices ![0, 64] S100000x64
  slices_S2_S1_1 : S2.Slices ![1] S1
  inb_S64x64_S64x64_0_0 : ∀ a, (![0, 0] : Fin 2 → Nat) a + S64x64.size a ≤ S64x64.size a
  h_S64x64 : 0 < S64x64.numel
  dot_S5000x64_S64x128_S5000x128_1_0_0_1_n_n_wf : DotDims.WF S5000x64 S64x128 S5000x128 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v111) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v112) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S2 : Shape := ⟨1, ![2]⟩
abbrev S64x64 : Shape := ⟨2, ![64, 64]⟩
abbrev S2x64x64 : Shape := ⟨3, ![2, 64, 64]⟩
abbrev S2x2x1600000 : Shape := ⟨3, ![2, 2, 1600000]⟩
abbrev S_ : Shape := ⟨0, ![]⟩
abbrev S1 : Shape := ⟨1, ![1]⟩
abbrev S100000x1 : Shape := ⟨2, ![100000, 1]⟩
abbrev S1x1x1600000 : Shape := ⟨3, ![1, 1, 1600000]⟩
abbrev S1600000 : Shape := ⟨1, ![1600000]⟩
abbrev S1x1600000 : Shape := ⟨2, ![1, 1600000]⟩
abbrev S1x64x64 : Shape := ⟨3, ![1, 64, 64]⟩
abbrev S1600000x1 : Shape := ⟨2, ![1600000, 1]⟩
abbrev S1600000x64 : Shape := ⟨2, ![1600000, 64]⟩

abbrev nBuf : Space → Nat
  | .hbm => 150
  | .vmem => 0
  | .smem => 0
  | _ => 0

abbrev hbmTy0_0 (i : Nat) : BufTy := match i % 128 with
  | 0 => ⟨S100000x64, .f32⟩
  | 1 => ⟨S2x1600000, .f32⟩
  | 2 => ⟨S100000, .f32⟩
  | 3 => ⟨S100000, .f32⟩
  | 4 => ⟨S2, .f32⟩
  | 5 => ⟨S64x64, .f32⟩
  | 6 => ⟨S2x64x64, .f32⟩
  | 7 => ⟨S2x64x64, .f32⟩
  | 8 => ⟨S2x2x1600000, .i32⟩
  | 9 => ⟨S_, .f32⟩
  | 10 => ⟨S_, .f32⟩
  | 11 => ⟨S_, .f32⟩
  | 12 => ⟨S_, .f32⟩
  | 13 => ⟨S1, .f32⟩
  | 14 => ⟨S2, .f32⟩
  | 15 => ⟨S2, .f32⟩
  | 16 => ⟨S2, .f32⟩
  | 17 => ⟨S_, .f32⟩
  | 18 => ⟨S_, .f32⟩
  | 19 => ⟨S1, .f32⟩
  | 20 => ⟨S2, .f32⟩
  | 21 => ⟨S2, .f32⟩
  | 22 => ⟨S_, .f32⟩
  | 23 => ⟨S100000, .f32⟩
  | 24 => ⟨S100000, .f32⟩
  | 25 => ⟨S100000x1, .f32⟩
  | 26 => ⟨S_, .f32⟩
  | 27 => ⟨S100000, .f32⟩
  | 28 => ⟨S100000, .f32⟩
  | 29 => ⟨S100000x1, .f32⟩
  | 30 => ⟨S_, .f32⟩
  | 31 => ⟨S100000x64, .f32⟩
  | 32 => ⟨S1x1x1600000, .i32⟩
  | 33 => ⟨S1600000, .i32⟩
  | 34 => ⟨S1x1x1600000, .i32⟩
  | 35 => ⟨S1600000, .i32⟩
  | 36 => ⟨S1x1600000, .f32⟩
  | 37 => ⟨S1600000, .f32⟩
  | 38 => ⟨S100000x64, .f32⟩
  | 39 => ⟨S100000x64, .f32⟩
  | 40 => ⟨S1x64x64, .f32⟩
  | 41 => ⟨S64x64, .f32⟩
  | 42 => ⟨S100000x64, .f32⟩
  | 43 => ⟨S1600000x1, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000x64, .f32⟩
  | 60 => ⟨S100000x64, .f32⟩
  | 61 => ⟨S1x64x64, .f32⟩
  | 62 => ⟨S64x64, .f32⟩
  | 63 => ⟨S100000x64, .f32⟩
  | 64 => ⟨S1600000x1, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x64, .f32⟩
  | 74 => ⟨S1600000x64, .f32⟩
  | 75 => ⟨S1600000x64, .f32⟩
  | 76 => ⟨S_, .f32⟩
  | 77 => ⟨S100000x64, .f32⟩
  | 78 => ⟨S1600000x1, .i32⟩
  | 79 => ⟨S100000x64, .f32⟩
  | 80 => ⟨S1, .f32⟩
  | 81 => ⟨S_, .f32⟩
  | 82 => ⟨S100000x64, .f32⟩
  | 83 => ⟨S100000x64, .f32⟩
  | 84 => ⟨S100000x64, .f32⟩
  | 85 => ⟨S100000x64, .f32⟩
  | 86 => ⟨S1x1x1600000, .i32⟩
  | 87 => ⟨S1600000, .i32⟩
  | 88 => ⟨S1x1x1600000, .i32⟩
  | 89 => ⟨S1600000, .i32⟩
  | 90 => ⟨S1x1600000, .f32⟩
  | 91 => ⟨S1600000, .f32⟩
  | 92 => ⟨S100000x64, .f32⟩
  | 93 => ⟨S100000x64, .f32⟩
  | 94 => ⟨S1x64x64, .f32⟩
  | 95 => ⟨S64x64, .f32⟩
  | 96 => ⟨S100000x64, .f32⟩
  | 97 => ⟨S1600000x1, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x64, .f32⟩
  | 107 => ⟨S1600000x64, .f32⟩
  | 108 => ⟨S1600000x64, .f32⟩
  | 109 => ⟨S_, .f32⟩
  | 110 => ⟨S100000x64, .f32⟩
  | 111 => ⟨S1600000x1, .i32⟩
  | 112 => ⟨S100000x64, .f32⟩
  | 113 => ⟨S100000x64, .f32⟩
  | 114 => ⟨S100000x64, .f32⟩
  | 115 => ⟨S1x64x64, .f32⟩
  | 116 => ⟨S64x64, .f32⟩
  | 117 => ⟨S100000x64, .f32⟩
  | 118 => ⟨S1600000x1, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S100000x64, .f32⟩

abbrev hbmTy0_1 (i : Nat) : BufTy := match i % 128 with
  | 0 => ⟨S1600000x64, .f32⟩
  | 1 => ⟨S1600000x64, .f32⟩
  | 2 => ⟨S_, .f32⟩
  | 3 => ⟨S100000x64, .f32⟩
  | 4 => ⟨S1600000x1, .i32⟩
  | 5 => ⟨S100000x64, .f32⟩
  | 6 => ⟨S1, .f32⟩
  | 7 => ⟨S_, .f32⟩
  | 8 => ⟨S100000x64, .f32⟩
  | 9 => ⟨S100000x64, .f32⟩
  | 10 => ⟨S100000x64, .f32⟩
  | 11 => ⟨S100000x64, .f32⟩
  | 12 => ⟨S100000x64, .f32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_10 : Ref sig .tc := ⟨.hbm, 98, rfl⟩
abbrev main_v77 : Ref sig .tc := ⟨.hbm, 99, rfl⟩
abbrev main_v78 : Ref sig .tc := ⟨.hbm, 100, rfl⟩
abbrev main_c_11 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_12 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_c_13 : Ref sig .tc := ⟨.hbm, 119, rfl⟩
abbrev main_v95 : Ref sig .tc := ⟨.hbm, 120, rfl⟩
abbrev main_v96 : Ref sig .tc := ⟨.hbm, 121, rfl⟩
abbrev main_c_14 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_15 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_16 : Ref sig .tc := ⟨.hbm, 143, rfl⟩
abbrev main_v116 : Ref sig .tc := ⟨.hbm, 144, rfl⟩
abbrev main_v117 : Ref sig .tc := ⟨.hbm, 145, rfl⟩
abbrev main_cst_17 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩

abbrev nD : Nat := 1
abbrev τ : Topo := Topo.v7x

variable {F : FTy → Type} [FloatOps F]

class Facts₀ : Prop where
  reducesTo_S2_S_d0 : S2.ReducesTo [0] S_
  h_S_ : 0 < S_.numel
  bcast_S_S1 : S_.BroadcastsInDim S1 (![] : Fin 0 → Fin S1.rank)
  bcast_S1_S2_0 : S1.BroadcastsInDim S2 (![0] : Fin 1 → Fin S2.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x64 : S_.BroadcastsInDim S100000x64 (![] : Fin 0 → Fin S100000x64.rank)
  slices_S2x2x1600000_S1x1x1600000_0_0_0 : S2x2x1600000.Slices ![0, 0, 0] S1x1x1600000
  shapeCasts_S1x1x1600000_S1600000 : S1x1x1600000.ShapeCasts S1600000
  slices_S2x2x1600000_S1x1x1600000_0_1_0 : S2x2x1600000.Slices ![0, 1, 0] S1x1x1600000
  slices_S2x1600000_S1x1600000_0_0 : S2x1600000.Slices ![0, 0] S1x1600000
  shapeCasts_S1x1600000_S1600000 : S1x1600000.ShapeCasts S1600000
  bcast_S100000x1_S100000x64_0_1 : S100000x1.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  slices_S2_S1_0 : S2.Slices ![0] S1
  shapeCasts_S1_S_ : S1.ShapeCasts S_
  slices_S2x2x1600000_S1x1x1600000_1_0_0 : S2x2x1600000.Slices ![1, 0, 0] S1x1x1600000
  slices_S2x2x1600000_S1x1x1600000_1_1_0 : S2x2x1600000.Slices ![1, 1, 0] S1x1x1600000
  slices_S2x1600000_S1x1600000_1_0 : S2x1600000.Slices ![1, 0] S1x1600000
  slices_S2x64x64_S1x64x64_1_0_0 : S2x64x64.Slices ![1, 0, 0] S1x64x64
  slices_S2_S1_1 : S2.Slices ![1] S1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Whole.lean ====
/-
  The kernel program's run with its result array named.

  @main is four segments: host operations, the first kernel region, host operations, the second kernel region. Every
  weakly fair execution terminates without a fault, and in every final state each unscoped buffer holds what the fold of
  the segments over the launch memory gives it: the result buffer what the second region's write-backs leave, the
  argument buffers their launch contents (nothing writes them). This is the program's frame run with the result buffer
  read off the last boundary's contents beside the arguments.
-/
import proofs.«169103_j17162689315366_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the argument buffers as launched. -/
theorem run_boundary : θ_run defs (onTc (τ := τ) (main (F := F))) ⟨m, fun _ => 0, ρ⟩ (fun r => ∀ c : Dev nD,
      r.2.mem ((c.tc : Thread nD τ).loc main_v112) = W4 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v112 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Whole

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibProduct.lean ====
/-
  A matrix product as ONE function of its two factors, on the extended reals, for any extents.

  * `product x w` is the `[a, k] × [k, b]` product: entry `(i, j)` is the sum over the contracted coordinate `e` of
    `x (i, e) · w (e, j)`; `square h` multiplies every entry by itself.
  * `matmul_rounded_eq`: the matrix unit's product into a zero accumulator of two `f32` factors each rounded to a shorter
    float format on the way in (left factor's last axis against the right factor's first, no batch axis) is `product` of the
    unrounded factors at the ideal instance, where rounding is the identity.
  * `dotGeneral_eq`: the host's `dot_general` with the same dimension numbers is `product`.
  * `product_congr`, `product_square_congr`: two products (the second: of the left factors squared) agree at two indices
    when the rows of the left factors and the columns of the right factors they read agree — the step that turns "the block a
    grid point computes from a row block" into "the same rows of the whole product".

  Only regrouping of a finite sum is used; no finiteness of the entries is needed.
-/
import Idealize.ShloMosaic.Lib.ValueIdx
import Idealize.ShloMosaic.Lib.Pipeline.Value
import Idealize.ShloMosaic.PureOps.Ideal.Laws
import proofs.«169103_j17162689315366_1_alg».proof.Proof.LibRowMax

noncomputable section

namespace Cert.LibProduct

open Idealize.ShloMosaic Idealize.ShloMosaic.ValueIdx
variable {a k b : ℕ}

/-- The product of an `[a, k]` matrix and a `[k, b]` matrix over the extended reals. -/
def product (x : (⟨2, ![a, k]⟩ : Shape).Idx → EReal) (w : (⟨2, ![k, b]⟩ : Shape).Idx → EReal) :
    (⟨2, ![a, b]⟩ : Shape).Idx → EReal :=
  fun i => ∑ e : Fin k, x (ix2 (i 0) e) * w (ix2 e (i 1))

theorem product_apply (x : (⟨2, ![a, k]⟩ : Shape).Idx → EReal) (w : (⟨2, ![k, b]⟩ : Shape).Idx → EReal) (i : Fin a) (j : Fin b) :
    product x w (ix2 i j) = ∑ e : Fin k, x (ix2 i e) * w (ix2 e j) := rfl

/-- Every entry multiplied by itself. -/
def square {s : Shape} (h : s.Idx → EReal) : s.Idx → EReal := fun i => h i * h i

/-- The matrix unit's product of two factors rounded to a shorter format, into a zero accumulator, is the product. -/
theorem matmul_rounded_eq {φ₁ φ₂ : FTy} (wf : DotDims.WF ⟨2, ![a, k]⟩ ⟨2, ![k, b]⟩ ⟨2, ![a, b]⟩ [1] [0] [0] [1] [] [])
    (prec : Option ContractPrecision) (x : FVec Ideal ⟨2, ![a, k]⟩ .f32) (w : FVec Ideal ⟨2, ![k, b]⟩ .f32)
    (h₁ : φ₁.bits < FTy.f32.bits) (h₂ : φ₂.bits < FTy.f32.bits) :
    FloatOps.matmul (Cert.LibRowMax.plainDims a k b wf) prec (truncf φ₁ x h₁) (truncf φ₂ w h₂)
        (constant ⟨2, ![a, b]⟩ .f32 0x00000000#32)
      = product x w := by
  funext j
  obtain ⟨p, q, rfl⟩ : ∃ (p : Fin a) (q : Fin b), j = ix2 p q := ⟨j 0, j 1, eq_ix2 j⟩
  exact Cert.LibRowMax.matmul_plain_apply wf prec (truncf φ₁ x h₁) (truncf φ₂ w h₂) p q

/-- The host's product of two factors is the product. -/
theorem dotGeneral_eq (wf : DotDims.WF ⟨2, ![a, k]⟩ ⟨2, ![k, b]⟩ ⟨2, ![a, b]⟩ [1] [0] [0] [1] [] [])
    (prec : Option ContractPrecision) (sched : HostSchedule) (x : FVec Ideal ⟨2, ![a, k]⟩ .f32) (w : FVec Ideal ⟨2, ![k, b]⟩ .f32) :
    FloatOps.dotGeneral (Cert.LibRowMax.plainDims a k b wf) prec sched x w = product x w := by
  funext j
  obtain ⟨p, q, rfl⟩ : ∃ (p : Fin a) (q : Fin b), j = ix2 p q := ⟨j 0, j 1, eq_ix2 j⟩
  exact Cert.LibRowMax.dotGeneral_plain_apply wf prec sched x w p q

/-! ## Two products agree at two indices when the rows and the columns they read agree -/

theorem product_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product x w j = product X W i :=
  Finset.sum_congr rfl fun e _ => by rw [hx e, hw e]

theorem product_square_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product (square x) w j = product (square X) W i :=
  Finset.sum_congr rfl fun e _ => by
    show x (ix2 (j 0) e) * x (ix2 (j 0) e) * w (ix2 e (j 1)) = X (ix2 (i 0) e) * X (ix2 (i 0) e) * W (ix2 e (i 1))
    rw [hx e, hw e]

end Cert.LibProduct

end
-- ==== Proof.Transform.lean ====
/-
  The first kernel region: what its two result arrays hold when the region ends, as whole-array functions of the
  arrays it finds.

  The region's grid has 20 points. Point `t` reads rows `5000 t … 5000 t + 4999` of the two `[100000, 64]` operands
  and the whole of the two `[64, 128]` operands, and writes rows `5000 t … 5000 t + 4999` of each `[100000, 128]`
  result: the product of its row block with the `[64, 128]` operand (the roundings of the factors on the way in are the
  identity on the extended reals, and the accumulator starts at zero). Entry `(r, j)` of a product reads only row `r` of
  the left factor and column `j` of the right one, so the block that point `t` writes is rows `5000 t …` of the product
  of the WHOLE left operand with the right operand; and every row `r` lies in the block of point `r / 5000`. Hence each
  result array ends holding that whole product.
-/
import proofs.«169103_j17162689315366_1_alg».proof.Proof.Gen.KernelIdeal.Frame
import proofs.«169103_j17162689315366_1_alg».proof.Proof.LibProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Transform

open Cert.KernelIdeal Cert.KernelIdeal.Gen Cert.LibProduct

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores for the first result: the product of the two blocks it loaded. -/
theorem pay_out (x : Vec Ideal S5000x64 .f32) (w : Vec Ideal S64x128 .f32) : k0_pay1 x w = product x w := by
  unfold k0_pay1
  rw [shapeCast_self, shapeCast_self]
  exact matmul_rounded_eq _ none x w _ _

/-- What the body stores for the second result: the same product of the other two blocks. -/
theorem pay_in (x : Vec Ideal S5000x64 .f32) (w : Vec Ideal S64x128 .f32) : k0_pay2 x w = product x w := by
  unfold k0_pay2
  rw [shapeCast_self, shapeCast_self]
  exact matmul_rounded_eq _ none x w _ _

/-- The block indices over the grid: the row-blocked windows (0, 1, 4, 5) sit at block `t` of the rows and block 0 of the
    columns, the two weight windows (2, 3) at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The first result's array as the region leaves it, in terms of what the region found. -/
abbrev outProduct (c : Dev nD) : S100000x128.Idx → EReal :=
  product (V c main_v16 : S100000x64.Idx → EReal) (V c main_v24 : S64x128.Idx → EReal)

/-- The second result's. -/
abbrev inProduct (c : Dev nD) : S100000x128.Idx → EReal :=
  product (V c main_v19 : S100000x64.Idx → EReal) (V c main_v29 : S64x128.Idx → EReal)

/-- WHAT POINT `t` WRITES BACK for the first result is block `t` of the whole product. -/
theorem flushed_out (c : Dev nD) (t : Fin cfg0.N) :
    (dat0 V c).flushed 4 t = ((cfg0.win 4).blk t).view.read (Elt Ideal) (outProduct V c) := by
  show (cfg0.win 4).cut (grid0.coords t) ((dat0 V c).after 4 t) = _
  rw [after0_4]
  unfold out0_4
  rw [View.canon_unit_zero zero_offsets]
  simp only [View.ld_unit_zero (S := S5000x64) zero_offsets, View.ld_unit_zero (S := S64x128) zero_offsets]
  rw [pay_out]
  obtain ⟨e00, e01, -, -, e20, e21, -, -, e40, e41, -, -⟩ := index_facts t
  funext j
  show product (iblk0 V c 0 t) (iblk0 V c 2 t) j = outProduct V c (((cfg0.win 4).blk t).view.emb j)
  refine product_congr _ _ _ _ j _ (fun e => ?_) (fun e => ?_)
  · show V c main_v16 (((cfg0.win 0).blk t).view.emb (ix2 (j 0) e)) = V c main_v16 (ix2 ((((cfg0.win 4).blk t).view.emb j) 0) e)
    congr 1
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 64 + 1 * e.val = e.val; omega
  · show V c main_v24 (((cfg0.win 2).blk t).view.emb (ix2 e (j 1))) = V c main_v24 (ix2 e ((((cfg0.win 4).blk t).view.emb j) 1))
    congr 1
    funext a; apply Fin.ext
    match a with
    | ⟨0, _⟩ => show win0_2.index t (0 : Fin 2) * 64 + 1 * e.val = e.val; omega
    | ⟨1, _⟩ => show win0_2.index t (1 : Fin 2) * 128 + 1 * (j 1).val = win0_4.index t (1 : Fin 2) * 128 + 1 * (j 1).val; omega

/-- WHAT POINT `t` WRITES BACK for the second result is block `t` of the whole product. -/
theorem flushed_in (c : Dev nD) (t : Fin cfg0.N) :
    (dat0 V c).flushed 5 t = ((cfg0.win 5).blk t).view.read (Elt Ideal) (inProduct V c) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S64x128) zero_offsets]
  rw [pay_in]
  obtain ⟨-, -, e10, e11, -, -, e30, e31, -, -, e50, e51⟩ := index_facts t
  funext j
  show product (iblk0 V c 1 t) (iblk0 V c 3 t) j = inProduct V c (((cfg0.win 5).blk t).view.emb j)
  refine product_congr _ _ _ _ j _ (fun e => ?_) (fun e => ?_)
  · show V c main_v19 (((cfg0.win 1).blk t).view.emb (ix2 (j 0) e)) = V c main_v19 (ix2 ((((cfg0.win 5).blk t).view.emb j) 0) e)
    congr 1
    funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 64 + 1 * e.val = e.val; omega
  · show V c main_v29 (((cfg0.win 3).blk t).view.emb (ix2 e (j 1))) = V c main_v29 (ix2 e ((((cfg0.win 5).blk t).view.emb j) 1))
    congr 1
    funext a; apply Fin.ext
    match a with
    | ⟨0, _⟩ => show win0_3.index t (0 : Fin 2) * 64 + 1 * e.val = e.val; omega
    | ⟨1, _⟩ => show win0_3.index t (1 : Fin 2) * 128 + 1 * (j 1).val = win0_5.index t (1 : Fin 2) * 128 + 1 * (j 1).val; omega

/-- An index of a result array is in point `t`'s block iff each coordinate is in the block's range on its axis. -/
theorem mem_block_out (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v30_0).slice (win0_4.rect t)).set ↔ _
  rw [View.set_slice_whole, Rect.mem_set_unit]
  exact Iff.rfl

theorem mem_block_in (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v30_1).slice (win0_5.rect t)).set ↔ _
  rw [View.set_slice_whole, Rect.mem_set_unit]
  exact Iff.rfl

/-- Row `r` lies in the block of point `r / 5000`. -/
theorem cover_out (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, e40, e41, -, -⟩ := index_facts t
  have ht : t.val = (i 0).val / 5000 := rfl
  refine ⟨t, flush0_4 t, ?_⟩
  rw [mem_block_out]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

theorem cover_in (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, e50, e51⟩ := index_facts t
  have ht : t.val = (i 0).val / 5000 := rfl
  refine ⟨t, flush0_5 t, ?_⟩
  rw [mem_block_in]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE FIRST RESULT ARRAY after the region: the whole product. -/
theorem final_out (c : Dev nD) : (dat0 V c).arrAt 4 cfg0.N = outProduct V c :=
  (dat0 V c).arrAt_eq_of_cover 4 (outProduct V c) (fun t _ => flushed_out V c t) cover_out

/-- THE SECOND RESULT ARRAY after the region: the whole product. -/
theorem final_in (c : Dev nD) : (dat0 V c).arrAt 5 cfg0.N = inProduct V c :=
  (dat0 V c).arrAt_eq_of_cover 5 (inProduct V c) (fun t _ => flushed_in V c t) cover_in

end Cert.KernelIdeal.Transform

end
-- ==== Proof.Hops.lean ====
/-
  The host-side mathematics both programs share, as named functions of arrays.

  * `hopWeights a`: the softmax of the two hop weights — `exp (a − max a)` divided by its sum.
  * `scaled d H`: the features `H` with row `r` multiplied by `max (d r) ε` (a degree clamped from below).
  * `hopMatrix0 θ`, `hopMatrix1 θ`: the two `[64, 64]` matrices stacked in a `[2, 64, 64]` array.
  * `wrapped x`: an index vector with the negative entries moved up by the number of nodes.
  * `spread vals seg src X`: the sparse product — gather row `src e` of `X` for every edge `e`, weight it by `vals e`, and
    add it into row `seg e` of a zero matrix.
  * `hop a vals rows cols Xout Xin`: one hop's term `a · (A · Xout + Aᵀ · Xin)`, the two sparse products with the roles
    of the edge's endpoints exchanged.
  * `aggregate …`: zero plus hop 0's term plus hop 1's term, each hop with its own weight, edge values and endpoints
    (taken out of the stacked inputs by `hopWeight`, `edgeValues`, `endpoints`).
  * `squashHost S Θ H`: `1 / (1 + exp (−(S · Θ))) + H` in the host's operations.
  The aggregate is a function of four `[100000, 64]` matrices (hop 0's and hop 1's transformed features, outgoing and
  incoming); both programs compute it with the same operations in the same order and differ only in how those four
  matrices are obtained.
-/
import proofs.«169103_j17162689315366_1_alg».proof.Proof.Gen.KernelIdeal

noncomputable section

open Idealize.ShloMosaic

namespace Cert.KernelIdeal.Hops

open Cert.KernelIdeal Cert.KernelIdeal.Facts₀

variable {F : FTy → Type} [FloatOps F]

/-- `exp (a − max a)` over the two hop weights. -/
def shifted (a : FVec F S2 .f32) : FVec F S2 .f32 :=
  Host.exp (subf a (broadcastInDim S2 ![0] bcast_S1_S2_0 (broadcastInDim S1 ![] bcast_S_S1
    (maximumf (constant S_ .f32 0xFF800000#32)
      (Host.reduce FloatOps.maximumf a (constant S_ .f32 0xFF800000#32) reducesTo_S2_S_d0 h_S_)))))

/-- The softmax of the two hop weights. -/
def hopWeights (a : FVec F S2 .f32) : FVec F S2 .f32 :=
  Host.divf (shifted a) (broadcastInDim S2 ![0] bcast_S1_S2_0 (broadcastInDim S1 ![] bcast_S_S1
    (Host.reduceAdd (shifted a) (constant S_ .f32 0x00000000#32) reducesTo_S2_S_d0 h_S_)))

/-- Row `r` of `H` multiplied by `max (d r) ε`. -/
def scaled (d : FVec F S100000 .f32) (H : FVec F S100000x64 .f32) : FVec F S100000x64 .f32 :=
  mulf (broadcastInDim S100000x64 ![0, 1] bcast_S100000x1_S100000x64_0_1
    (broadcastInDim S100000x1 ![0] bcast_S100000_S100000x1_0
      (maximumf d (broadcastInDim S100000 ![] bcast_S_S100000 (constant S_ .f32 0x322BCC77#32))))) H

/-- Matrix 0 of a stack of two. -/
def hopMatrix0 (θ : FVec F S2x64x64 .f32) : FVec F S64x64 .f32 :=
  shapeCast S64x64 (extractStridedSlice S1x64x64 ![0, 0, 0] θ slices_S2x64x64_S1x64x64_0_0_0) shapeCasts_S1x64x64_S64x64

/-- Matrix 1 of a stack of two. -/
def hopMatrix1 (θ : FVec F S2x64x64 .f32) : FVec F S64x64 .f32 :=
  shapeCast S64x64 (extractStridedSlice S1x64x64 ![1, 0, 0] θ slices_S2x64x64_S1x64x64_1_0_0) shapeCasts_S1x64x64_S64x64

/-- Negative indices moved up by the number of nodes. -/
def wrapped (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

/-- The sparse product: for every edge, row `src e` of `X` times `vals e`, added into row `seg e` of zero. -/
def spread (vals : FVec F S1600000 .f32) (seg src : IVec S1600000 32) (X : FVec F S100000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 seg)
    (mulf (broadcastInDim S1600000x64 ![0, 1] bcast_S1600000x1_S1600000x64_0_1
        (broadcastInDim S1600000x1 ![0] bcast_S1600000_S1600000x1_0 vals))
      (Host.gather gather_S100000x64_S1600000x1_S1600000x64_1_0_n_n_0_1_164 X
        (broadcastInDim S1600000x1 ![0] bcast_S1600000_S1600000x1_0 (wrapped src))))

/-- One hop's term: `a · (A · Xout + Aᵀ · Xin)`. -/
def hop (a : FVec F S_ .f32) (vals : FVec F S1600000 .f32) (rows cols : IVec S1600000 32)
    (Xout Xin : FVec F S100000x64 .f32) : FVec F S100000x64 .f32 :=
  mulf (broadcastInDim S100000x64 ![] bcast_S_S100000x64 a)
    (addf (spread vals rows cols Xout) (spread vals cols rows Xin))

/-- Hop 0's weight out of the pair. -/
def hopWeight0 (w : FVec F S2 .f32) : FVec F S_ .f32 :=
  shapeCast S_ (extractStridedSlice S1 ![0] w slices_S2_S1_0) shapeCasts_S1_S_
/-- Hop 1's weight out of the pair. -/
def hopWeight1 (w : FVec F S2 .f32) : FVec F S_ .f32 :=
  shapeCast S_ (extractStridedSlice S1 ![1] w slices_S2_S1_1) shapeCasts_S1_S_

/-- Hop 0's edge values. -/
def edgeValues0 (v : FVec F S2x1600000 .f32) : FVec F S1600000 .f32 :=
  shapeCast S1600000 (extractStridedSlice S1x1600000 ![0, 0] v slices_S2x1600000_S1x1600000_0_0) shapeCasts_S1x1600000_S1600000
/-- Hop 1's edge values. -/
def edgeValues1 (v : FVec F S2x1600000 .f32) : FVec F S1600000 .f32 :=
  shapeCast S1600000 (extractStridedSlice S1x1600000 ![1, 0] v slices_S2x1600000_S1x1600000_1_0) shapeCasts_S1x1600000_S1600000

/-- The four endpoint vectors: hop 0's rows and columns, hop 1's rows and columns. -/
def rows0 (e : IVec S2x2x1600000 32) : IVec S1600000 32 :=
  shapeCast S1600000 (extractStridedSlice S1x1x1600000 ![0, 0, 0] e slices_S2x2x1600000_S1x1x1600000_0_0_0) shapeCasts_S1x1x1600000_S1600000
def cols0 (e : IVec S2x2x1600000 32) : IVec S1600000 32 :=
  shapeCast S1600000 (extractStridedSlice S1x1x1600000 ![0, 1, 0] e slices_S2x2x1600000_S1x1x1600000_0_1_0) shapeCasts_S1x1x1600000_S1600000
def rows1 (e : IVec S2x2x1600000 32) : IVec S1600000 32 :=
  shapeCast S1600000 (extractStridedSlice S1x1x1600000 ![1, 0, 0] e slices_S2x2x1600000_S1x1x1600000_1_0_0) shapeCasts_S1x1x1600000_S1600000
def cols1 (e : IVec S2x2x1600000 32) : IVec S1600000 32 :=
  shapeCast S1600000 (extractStridedSlice S1x1x1600000 ![1, 1, 0] e slices_S2x2x1600000_S1x1x1600000_1_1_0) shapeCasts_S1x1x1600000_S1600000

/-- Zero plus hop 0's term plus hop 1's term. -/
def aggregate (w : FVec F S2 .f32) (v : FVec F S2x1600000 .f32) (e : IVec S2x2x1600000 32)
    (Xout0 Xin0 Xout1 Xin1 : FVec F S100000x64 .f32) : FVec F S100000x64 .f32 :=
  addf
    (addf (broadcastInDim S100000x64 ![] bcast_S_S100000x64 (constant S_ .f32 0x00000000#32))
      (hop (hopWeight0 w) (edgeValues0 v) (rows0 e) (cols0 e) Xout0 Xin0))
    (hop (hopWeight1 w) (edgeValues1 v) (rows1 e) (cols1 e) Xout1 Xin1)

end Cert.KernelIdeal.Hops

end
-- ==== Proof.Spec.lean ====
/-
  The function both programs compute, on the extended reals.

  With `H` the node features, `d_out`, `d_in` the degrees, `a` the two hop weights, `θ_out`, `θ_in` the two stacks of hop
  matrices, `Θ` the projection matrix, and for hop `k` the edge list (rows, columns, values) of a sparse matrix `A_k`:

      result = logistic ( ( Σ_k  softmax(a)_k · ( A_k · ((max(d_out, ε) ∘ H) · θ_out[k]) + A_kᵀ · ((max(d_in, ε) ∘ H) · θ_in[k]) ) ) · Θ ) + H

  where `∘` scales rows, `·` between matrices is the matrix product (`product`: entry `(i, j)` is the sum over `e` of
  `x (i, e) · w (e, j)`), and the sparse products are gathers and scatter-adds over the edges (`Hops.aggregate`).
  `squash S Θ H` is the last step, `logistic (S · Θ) + H` entry by entry.
-/
import proofs.«169103_j17162689315366_1_alg».proof.Proof.Hops
import proofs.«169103_j17162689315366_1_alg».proof.Proof.LibProduct

noncomputable section

open Idealize.ShloMosaic

namespace Cert.KernelIdeal.Spec

open Cert.KernelIdeal Cert.KernelIdeal.Hops Cert.LibProduct

/-- The logistic function of a product, plus a third matrix, entry by entry. -/
def squash {a k b : ℕ} (S : (⟨2, ![a, k]⟩ : Shape).Idx → EReal) (Θ : (⟨2, ![k, b]⟩ : Shape).Idx → EReal)
    (H : (⟨2, ![a, b]⟩ : Shape).Idx → EReal) : (⟨2, ![a, b]⟩ : Shape).Idx → EReal :=
  fun i => FloatOps.addf (F := Ideal) (φ := .f32) (FloatOps.logistic (F := Ideal) (φ := .f32) (product S Θ i)) (H i)

/-- The four transformed feature matrices aggregated over both hops, from the argument arrays. -/
def summed (H : FVec Ideal S100000x64 .f32) (vals : FVec Ideal S2x1600000 .f32) (dout din : FVec Ideal S100000 .f32)
    (a : FVec Ideal S2 .f32) (θout θin : FVec Ideal S2x64x64 .f32) (edges : IVec S2x2x1600000 32) :
    FVec Ideal S100000x64 .f32 :=
  aggregate (hopWeights a) vals edges
    (product (scaled dout H) (hopMatrix0 θout)) (product (scaled din H) (hopMatrix0 θin))
    (product (scaled dout H) (hopMatrix1 θout)) (product (scaled din H) (hopMatrix1 θin))

/-- The result, from the argument arrays. -/
def spec (H : FVec Ideal S100000x64 .f32) (vals : FVec Ideal S2x1600000 .f32) (dout din : FVec Ideal S100000 .f32)
    (a : FVec Ideal S2 .f32) (Θ : FVec Ideal S64x64 .f32) (θout θin : FVec Ideal S2x64x64 .f32)
    (edges : IVec S2x2x1600000 32) : S100000x64.Idx → EReal :=
  squash (summed H vals dout din a θout θin edges) Θ H

end Cert.KernelIdeal.Spec

end
-- ==== Proof.Projection.lean ====
/-
  The second kernel region: what its result array holds when the region ends, as a whole-array function of the arrays
  it finds.

  The grid has 20 points. Point `t` reads rows `5000 t … 5000 t + 4999` of the `[100000, 64]` aggregate `S` and of the
  features `H`, and the whole `[64, 64]` matrix `Θ`; it writes the same rows of the result: the logistic function of the
  product of its block of `S` with `Θ`, plus its block of `H`, entry by entry. Entry `(r, j)` of the product reads only
  row `r` of `S`, so point `t`'s block is rows `5000 t …` of `logistic (S · Θ) + H` over the whole arrays, and every row lies
  in the block of point `r / 5000`. Hence the result array ends holding `logistic (S · Θ) + H`.
-/
import proofs.«169103_j17162689315366_1_alg».proof.Proof.Gen.KernelIdeal.Frame
import proofs.«169103_j17162689315366_1_alg».proof.Proof.LibProduct
import proofs.«169103_j17162689315366_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Projection

open Cert.KernelIdeal Cert.KernelIdeal.Gen Cert.LibProduct Cert.KernelIdeal.Spec

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores: `squash` of the three blocks it loaded. -/
theorem pay_final (s : Vec Ideal S5000x64 .f32) (θ : Vec Ideal S64x64 .f32) (h : Vec Ideal S5000x64 .f32) :
    k1_pay1 s θ h = squash s θ h := by
  unfold k1_pay1
  rw [shapeCast_self]
  funext i
  exact congrArg (fun z => FloatOps.addf (F := Ideal) (φ := .f32) (FloatOps.logistic (F := Ideal) (φ := .f32) z) (h i))
    (congrFun (matmul_rounded_eq _ none s θ _ _) i)

/-- The block indices over the grid: the row-blocked windows (0, 1, 3) sit at block `t` of the rows and block 0 of the
    columns, the weight window (2) at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The result array as the region leaves it, in terms of what the region found. -/
abbrev result (c : Dev nD) : S100000x64.Idx → EReal :=
  squash (V c main_v111 : S100000x64.Idx → EReal) (V c main_arg5 : S64x64.Idx → EReal) (V c main_arg0 : S100000x64.Idx → EReal)

/-- WHAT POINT `t` WRITES BACK is block `t` of the whole-array function. -/
theorem flushed_result (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S64x64) zero_offsets]
  rw [pay_final]
  obtain ⟨e00, e01, e10, e11, e20, e21, e30, e31⟩ := index_facts t
  funext j
  show squash (iblk1 V c 0 t) (iblk1 V c 2 t) (iblk1 V c 1 t) j = result V c (((cfg1.win 3).blk t).view.emb j)
  have hprod : product (iblk1 V c 0 t) (iblk1 V c 2 t) j
      = product (V c main_v111 : S100000x64.Idx → EReal) (V c main_arg5 : S64x64.Idx → EReal) (((cfg1.win 3).blk t).view.emb j) := by
    refine product_congr _ _ _ _ j _ (fun e => ?_) (fun e => ?_)
    · show V c main_v111 (((cfg1.win 0).blk t).view.emb (ix2 (j 0) e)) = V c main_v111 (ix2 ((((cfg1.win 3).blk t).view.emb j) 0) e)
      congr 1
      funext a; apply Fin.ext
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 64 + 1 * e.val = e.val; omega
    · show V c main_arg5 (((cfg1.win 2).blk t).view.emb (ix2 e (j 1))) = V c main_arg5 (ix2 e ((((cfg1.win 3).blk t).view.emb j) 1))
      congr 1
      funext a; apply Fin.ext
      match a with
      | ⟨0, _⟩ => show win1_2.index t (0 : Fin 2) * 64 + 1 * e.val = e.val; omega
      | ⟨1, _⟩ => show win1_2.index t (1 : Fin 2) * 64 + 1 * (j 1).val = win1_3.index t (1 : Fin 2) * 64 + 1 * (j 1).val; omega
  have hres : iblk1 V c 1 t j = V c main_arg0 (((cfg1.win 3).blk t).view.emb j) := by
    show V c main_arg0 (((cfg1.win 1).blk t).view.emb j) = V c main_arg0 (((cfg1.win 3).blk t).view.emb j)
    refine congrArg (V c main_arg0) (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 64 + 1 * (j 1).val = win1_3.index t (1 : Fin 2) * 64 + 1 * (j 1).val; omega
  exact congrArg₂ (FloatOps.addf (F := Ideal) (φ := .f32)) (congrArg (FloatOps.logistic (F := Ideal) (φ := .f32)) hprod) hres

/-- An index of the result array is in point `t`'s block iff each coordinate is in the block's range on its axis. -/
theorem mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v112).slice (win1_3.rect t)).set ↔ _
  rw [View.set_slice_whole, Rect.mem_set_unit]
  exact Iff.rfl

/-- Row `r` lies in the block of point `r / 5000`. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, e30, e31⟩ := index_facts t
  have ht : t.val = (i 0).val / 5000 := rfl
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE RESULT ARRAY after the region. -/
theorem final_result (c : Dev nD) : (dat1 V c).arrAt 3 cfg1.N = result V c :=
  (dat1 V c).arrAt_eq_of_cover 3 (result V c) (fun t _ => flushed_result V c t) cover

end Cert.KernelIdeal.Projection

end
-- ==== Proof.Between.lean ====
/-
  The kernel program's two stretches of host operations, read back as functions of the buffers they find.

  The first stretch (before the first kernel region) computes, from any contents of the argument buffers: the softmax of
  the hop weights; the features scaled by the clamped out-degrees and by the clamped in-degrees; and, for each of the two
  stacks of hop matrices, its two `[64, 64]` matrices side by side as one `[64, 128]` matrix. The second stretch (between
  the regions) computes the aggregate over both hops from the softmax, the edge values, the edge endpoints, and the
  four column halves of the first region's two `[100000, 128]` results (columns 0–63 and 64–127 of each).
  Each statement is the stretch's fold computed at one buffer: every operation's result at its own buffer is its
  function of its operands' buffers, and at any other buffer what was there.
-/
import proofs.«169103_j17162689315366_1_alg».proof.Proof.Gen.KernelIdeal.Launch
import proofs.«169103_j17162689315366_1_alg».proof.Proof.Hops
import Idealize.ShloMosaic.Lib.StableHlo.Run

set_option maxRecDepth 16384

noncomputable section

open Idealize.ShloMosaic Idealize.ShloMosaic.TcCoe Idealize.ShloMosaic.StableHlo

namespace Cert.KernelIdeal.Between

open Cert.KernelIdeal Cert.KernelIdeal.Gen Cert.KernelIdeal.Hops

variable {F : FTy → Type} [FloatOps F]
variable (X : Valuation τ sig (Elt F))

/-- The softmax of the hop weights. -/
theorem first_weights :
    StableHlo.after hostOps0 X (Proc.devRef .tc main_v9) = hopWeights (X (Proc.devRef .tc main_arg4)) := by
  after_results_simp <;> rfl

/-- The features scaled by the clamped out-degrees. -/
theorem first_scaled_out :
    StableHlo.after hostOps0 X (Proc.devRef .tc main_v16)
      = scaled (X (Proc.devRef .tc main_arg2)) (X (Proc.devRef .tc main_arg0)) := by
  after_results_simp <;> rfl

/-- The features scaled by the clamped in-degrees. -/
theorem first_scaled_in :
    StableHlo.after hostOps0 X (Proc.devRef .tc main_v19)
      = scaled (X (Proc.devRef .tc main_arg3)) (X (Proc.devRef .tc main_arg0)) := by
  after_results_simp <;> rfl

/-- The outgoing hop matrices side by side. -/
theorem first_matrices_out :
    StableHlo.after hostOps0 X (Proc.devRef .tc main_v24)
      = concatenate S64x128 1 [⟨S64x64, hopMatrix0 (X (Proc.devRef .tc main_arg6))⟩, ⟨S64x64, hopMatrix1 (X (Proc.devRef .tc main_arg6))⟩]
          Facts₀.concatenates_S64x64_S64x64_S64x128_d1 := by
  after_results_simp <;> rfl

/-- The incoming hop matrices side by side. -/
theorem first_matrices_in :
    StableHlo.after hostOps0 X (Proc.devRef .tc main_v29)
      = concatenate S64x128 1 [⟨S64x64, hopMatrix0 (X (Proc.devRef .tc main_arg7))⟩, ⟨S64x64, hopMatrix1 (X (Proc.devRef .tc main_arg7))⟩]
          Facts₀.concatenates_S64x64_S64x64_S64x128_d1 := by
  after_results_simp <;> rfl

/-- The first stretch writes none of the arguments the later segments read. -/
theorem first_keeps :
    StableHlo.after hostOps0 X (Proc.devRef .tc main_arg0) = X (Proc.devRef .tc main_arg0)
    ∧ StableHlo.after hostOps0 X (Proc.devRef .tc main_arg1) = X (Proc.devRef .tc main_arg1)
    ∧ StableHlo.after hostOps0 X (Proc.devRef .tc main_arg5) = X (Proc.devRef .tc main_arg5)
    ∧ StableHlo.after hostOps0 X (Proc.devRef .tc main_arg8) = X (Proc.devRef .tc main_arg8) := by
  refine ⟨?_, ?_, ?_, ?_⟩ <;> (after_results_simp <;> rfl)

end Cert.KernelIdeal.Between

end
-- ==== Proof.Between2.lean ====
/-
  The kernel program's second stretch of host operations (between the two kernel regions), read back.

  From any contents of the buffers it finds, the stretch leaves in its last buffer the aggregate over both hops, computed
  from the softmax of the hop weights, the edge values, the edge endpoints, and the four column halves of the first
  region's two `[100000, 128]` results: columns 0–63 of each are hop 0's transformed features, columns 64–127 hop 1's.
  It writes neither the features nor the projection matrix, which the second region reads.
-/
import proofs.«169103_j17162689315366_1_alg».proof.Proof.Gen.KernelIdeal.Launch
import proofs.«169103_j17162689315366_1_alg».proof.Proof.Hops
import Idealize.ShloMosaic.Lib.StableHlo.Run

set_option maxRecDepth 16384

noncomputable section

open Idealize.ShloMosaic Idealize.ShloMosaic.TcCoe Idealize.ShloMosaic.StableHlo

namespace Cert.KernelIdeal.Between

open Cert.KernelIdeal Cert.KernelIdeal.Gen Cert.KernelIdeal.Hops

variable {F : FTy → Type} [FloatOps F]
variable (X : Valuation τ sig (Elt F))

set_option maxHeartbeats 40000000 in
/-- The aggregate, from the buffers the stretch finds. -/
theorem second_aggregate :
    StableHlo.after hostOps1 X (Proc.devRef .tc main_v111)
      = aggregate (X (Proc.devRef .tc main_v9)) (X (Proc.devRef .tc main_arg1)) (X (Proc.devRef .tc main_arg8))
          (extractStridedSlice S100000x64 ![0, 0] (X (Proc.devRef .tc main_v30_0)) Facts₀.slices_S100000x128_S100000x64_0_0)
          (extractStridedSlice S100000x64 ![0, 0] (X (Proc.devRef .tc main_v30_1)) Facts₀.slices_S100000x128_S100000x64_0_0)
          (extractStridedSlice S100000x64 ![0, 64] (X (Proc.devRef .tc main_v30_0)) Facts₀.slices_S100000x128_S100000x64_0_64)
          (extractStridedSlice S100000x64 ![0, 64] (X (Proc.devRef .tc main_v30_1)) Facts₀.slices_S100000x128_S100000x64_0_64) := by
  after_results_simp <;> rfl

set_option maxHeartbeats 40000000 in
/-- The stretch writes neither the features nor the projection matrix. -/
theorem second_keeps :
    StableHlo.after hostOps1 X (Proc.devRef .tc main_arg0) = X (Proc.devRef .tc main_arg0)
    ∧ StableHlo.after hostOps1 X (Proc.devRef .tc main_arg5) = X (Proc.devRef .tc main_arg5) := by
  refine ⟨?_, ?_⟩ <;> (after_results_simp <;> rfl)

end Cert.KernelIdeal.Between

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.LibSideBySide.lean ====
/-
  A matrix product whose right factor is two matrices side by side, over the extended reals, for any extents.

  Write `[w₀ | w₁]` for the `[k, t]` matrix whose first `b₁` columns are `w₀` and whose remaining `b₂` columns are
  `w₁`. Column `j` of the product `x · [w₀ | w₁]` is the sum over the contracted coordinate `e` of
  `x (i, e) · [w₀ | w₁] (e, j)`, and the joined matrix at `(e, j)` is `w₀ (e, j)` for `j < b₁` and `w₁ (e, j − b₁)`
  otherwise. So the first `b₁` columns of the product are `x · w₀` and the columns from `b₁` on are `x · w₁`: taking the two
  column ranges of the joined product apart gives back the two separate products, term by term of the same sums. No
  property of the entries (finiteness, sign) is used: only which entry each summand reads.
-/
import Idealize.ShloMosaic.Lib.ValueIdx
import Idealize.ShloMosaic.Lib.Pipeline.Value
import Idealize.ShloMosaic.PureOps.Ideal.Laws
import proofs.«169103_j17162689315366_1_alg».proof.Proof.LibProduct
import proofs.«169103_j17162689315366_1_alg».proof.Proof.LibStack

noncomputable section

namespace Cert.LibSideBySide

open Idealize.ShloMosaic Idealize.ShloMosaic.ValueIdx Cert.LibProduct

variable {α : Type} {a k b b₁ b₂ t o : ℕ}

/-- Columns `o … o + b − 1` of an `[a, t]` matrix read at `(p, q)`: the matrix at `(p, o + q)`. -/
theorem slice_cols_apply (P : (⟨2, ![a, t]⟩ : Shape).Idx → α)
    (h : (⟨2, ![a, t]⟩ : Shape).Slices ![0, o] ⟨2, ![a, b]⟩) (p : Fin a) (q : Fin b) (q' : Fin t)
    (hq : q'.val = o + q.val) :
    extractStridedSlice ⟨2, ![a, b]⟩ ![0, o] P h (ix2 p q) = P (ix2 p q') :=
  extractStridedSlice_apply ![0, o] P h (ix2 p q) (ix2 p q') fun ax => by
    match ax with
    | ⟨0, _⟩ => show p.val = 0 + p.val; omega
    | ⟨1, _⟩ => exact hq

/-- A left column of `x · [w₀ | w₁]` is the same column of `x · w₀`. -/
theorem product_beside_left (x : (⟨2, ![a, k]⟩ : Shape).Idx → EReal) (w₀ : (⟨2, ![k, b₁]⟩ : Shape).Idx → EReal)
    (w₁ : (⟨2, ![k, b₂]⟩ : Shape).Idx → EReal)
    (h : Shape.Concatenates [(⟨2, ![k, b₁]⟩ : Shape), ⟨2, ![k, b₂]⟩] ⟨2, ![k, t]⟩ 1)
    (i : Fin a) (j : Fin b₁) (j' : Fin t) (hj : j'.val = j.val) :
    product x (concatenate ⟨2, ![k, t]⟩ 1 [⟨⟨2, ![k, b₁]⟩, w₀⟩, ⟨⟨2, ![k, b₂]⟩, w₁⟩] h) (ix2 i j')
      = product x w₀ (ix2 i j) :=
  Finset.sum_congr rfl fun e _ => congrArg (x (ix2 i e) * ·) (Cert.LibStack.beside_left w₀ w₁ h e j j' hj)

/-- Column `b₁ + j` of `x · [w₀ | w₁]` is column `j` of `x · w₁`. -/
theorem product_beside_right (x : (⟨2, ![a, k]⟩ : Shape).Idx → EReal) (w₀ : (⟨2, ![k, b₁]⟩ : Shape).Idx → EReal)
    (w₁ : (⟨2, ![k, b₂]⟩ : Shape).Idx → EReal)
    (h : Shape.Concatenates [(⟨2, ![k, b₁]⟩ : Shape), ⟨2, ![k, b₂]⟩] ⟨2, ![k, t]⟩ 1)
    (i : Fin a) (j : Fin b₂) (j' : Fin t) (hj : j'.val = j.val + b₁) :
    product x (concatenate ⟨2, ![k, t]⟩ 1 [⟨⟨2, ![k, b₁]⟩, w₀⟩, ⟨⟨2, ![k, b₂]⟩, w₁⟩] h) (ix2 i j')
      = product x w₁ (ix2 i j) :=
  Finset.sum_congr rfl fun e _ => congrArg (x (ix2 i e) * ·) (Cert.LibStack.beside_right w₀ w₁ h e j j' hj)

/-- The first `b₁` columns of `x · [w₀ | w₁]`, taken out as a matrix, are `x · w₀`. -/
theorem left_cols_product (x : (⟨2, ![a, k]⟩ : Shape).Idx → EReal) (w₀ : (⟨2, ![k, b₁]⟩ : Shape).Idx → EReal)
    (w₁ : (⟨2, ![k, b₂]⟩ : Shape).Idx → EReal)
    (h : Shape.Concatenates [(⟨2, ![k, b₁]⟩ : Shape), ⟨2, ![k, b₂]⟩] ⟨2, ![k, t]⟩ 1)
    (hs : (⟨2, ![a, t]⟩ : Shape).Slices ![0, 0] ⟨2, ![a, b₁]⟩) (ht : t = b₁ + b₂) :
    extractStridedSlice ⟨2, ![a, b₁]⟩ ![0, 0]
        (product x (concatenate ⟨2, ![k, t]⟩ 1 [⟨⟨2, ![k, b₁]⟩, w₀⟩, ⟨⟨2, ![k, b₂]⟩, w₁⟩] h)) hs
      = product x w₀ := by
  funext idx
  obtain ⟨p, q, rfl⟩ : ∃ (p : Fin a) (q : Fin b₁), idx = ix2 p q := ⟨idx 0, idx 1, eq_ix2 idx⟩
  have hq : q.val < t := by have := q.isLt; omega
  exact (slice_cols_apply _ hs p q ⟨q.val, hq⟩ (by show q.val = 0 + q.val; omega)).trans
    (product_beside_left x w₀ w₁ h p q ⟨q.val, hq⟩ rfl)

/-- The columns from `b₁` on of `x · [w₀ | w₁]`, taken out as a matrix, are `x · w₁`. -/
theorem right_cols_product (x : (⟨2, ![a, k]⟩ : Shape).Idx → EReal) (w₀ : (⟨2, ![k, b₁]⟩ : Shape).Idx → EReal)
    (w₁ : (⟨2, ![k, b₂]⟩ : Shape).Idx → EReal)
    (h : Shape.Concatenates [(⟨2, ![k, b₁]⟩ : Shape), ⟨2, ![k, b₂]⟩] ⟨2, ![k, t]⟩ 1)
    (hs : (⟨2, ![a, t]⟩ : Shape).Slices ![0, b₁] ⟨2, ![a, b₂]⟩) (ht : t = b₁ + b₂) :
    extractStridedSlice ⟨2, ![a, b₂]⟩ ![0, b₁]
        (product x (concatenate ⟨2, ![k, t]⟩ 1 [⟨⟨2, ![k, b₁]⟩, w₀⟩, ⟨⟨2, ![k, b₂]⟩, w₁⟩] h)) hs
      = product x w₁ := by
  funext idx
  obtain ⟨p, q, rfl⟩ : ∃ (p : Fin a) (q : Fin b₂), idx = ix2 p q := ⟨idx 0, idx 1, eq_ix2 idx⟩
  have hq : b₁ + q.val < t := by have := q.isLt; omega
  exact (slice_cols_apply _ hs p q ⟨b₁ + q.val, hq⟩ rfl).trans
    (product_beside_right x w₀ w₁ h p q ⟨b₁ + q.val, hq⟩ (by show b₁ + q.val = q.val + b₁; omega))

end Cert.LibSideBySide

end
-- ==== Proof.KernelValue.lean ====
/-
  The kernel program's result as the specification's function of its argument arrays.

  Follow the buffers through @main's four segments from the launch memory. The first stretch of host operations leaves
  the softmax of the hop weights, the two degree-scaled feature matrices and the two `[64, 128]` matrices of hop matrices
  side by side. The first kernel region leaves each scaled feature matrix times its side-by-side matrix. The second
  stretch takes the column halves of those two products — which are the products with the single hop matrices, because a
  column of a product reads one column of the right factor — and aggregates them over the edges and the hops. The second
  kernel region leaves the logistic function of that aggregate times the projection matrix, plus the features. Nothing
  on the way writes an argument, so every argument is read at its launch contents.
-/
import proofs.«169103_j17162689315366_1_alg».proof.Proof.Whole
import proofs.«169103_j17162689315366_1_alg».proof.Proof.Transform
import proofs.«169103_j17162689315366_1_alg».proof.Proof.Projection
import proofs.«169103_j17162689315366_1_alg».proof.Proof.Between
import proofs.«169103_j17162689315366_1_alg».proof.Proof.Between2
import proofs.«169103_j17162689315366_1_alg».proof.Proof.LibSideBySide
import proofs.«169103_j17162689315366_1_alg».proof.Proof.Spec

set_option maxRecDepth 16384

noncomputable section

open Idealize.ShloMosaic Idealize.ShloMosaic.TcCoe Idealize.SL.Sem

namespace Cert.KernelIdeal.Result

open Cert.KernelIdeal Cert.KernelIdeal.Gen Cert.KernelIdeal.Hops Cert.KernelIdeal.Spec Cert.LibProduct Cert.LibSideBySide

variable (m : (ℓ : Loc nD τ sig) → Buf (Elt Ideal) ℓ) (ρ : Dev nD → PrngReg)

/-! ## What the first region finds -/

theorem entry_scaled_out (c : Dev nD) :
    (V1 m ρ c main_v16 : S100000x64.Idx → EReal)
      = scaled (F := Ideal) (m ((c : Thread nD τ).loc main_arg2)) (m ((c : Thread nD τ).loc main_arg0)) :=
  Between.first_scaled_out (W0 m ρ c)

theorem entry_scaled_in (c : Dev nD) :
    (V1 m ρ c main_v19 : S100000x64.Idx → EReal)
      = scaled (F := Ideal) (m ((c : Thread nD τ).loc main_arg3)) (m ((c : Thread nD τ).loc main_arg0)) :=
  Between.first_scaled_in (W0 m ρ c)

theorem entry_matrices_out (c : Dev nD) :
    (V1 m ρ c main_v24 : S64x128.Idx → EReal)
      = concatenate S64x128 1 [⟨S64x64, hopMatrix0 (F := Ideal) (m ((c : Thread nD τ).loc main_arg6))⟩, ⟨S64x64, hopMatrix1 (F := Ideal) (m ((c : Thread nD τ).loc main_arg6))⟩]
          Facts₀.concatenates_S64x64_S64x64_S64x128_d1 :=
  Between.first_matrices_out (W0 m ρ c)

theorem entry_matrices_in (c : Dev nD) :
    (V1 m ρ c main_v29 : S64x128.Idx → EReal)
      = concatenate S64x128 1 [⟨S64x64, hopMatrix0 (F := Ideal) (m ((c : Thread nD τ).loc main_arg7))⟩, ⟨S64x64, hopMatrix1 (F := Ideal) (m ((c : Thread nD τ).loc main_arg7))⟩]
          Facts₀.concatenates_S64x64_S64x64_S64x128_d1 :=
  Between.first_matrices_in (W0 m ρ c)

/-! ## What the second stretch finds -/

theorem found_weights (c : Dev nD) :
    (W2 m ρ c (Proc.devRef .tc main_v9) : S2.Idx → EReal) = hopWeights (F := Ideal) (m ((c : Thread nD τ).loc main_arg4)) :=
  (W2_of_ne m ρ c main_v9 (by decide)).trans (Between.first_weights (W0 m ρ c))

theorem found_values (c : Dev nD) :
    W2 m ρ c (Proc.devRef .tc main_arg1) = m ((c : Thread nD τ).loc main_arg1) :=
  (W2_of_ne m ρ c main_arg1 (by decide)).trans (Between.first_keeps (W0 m ρ c)).2.1

theorem found_edges (c : Dev nD) :
    W2 m ρ c (Proc.devRef .tc main_arg8) = m ((c : Thread nD τ).loc main_arg8) :=
  (W2_of_ne m ρ c main_arg8 (by decide)).trans (Between.first_keeps (W0 m ρ c)).2.2.2

theorem found_features (c : Dev nD) :
    W2 m ρ c (Proc.devRef .tc main_arg0) = m ((c : Thread nD τ).loc main_arg0) :=
  (W2_of_ne m ρ c main_arg0 (by decide)).trans (Between.first_keeps (W0 m ρ c)).1

theorem found_projection (c : Dev nD) :
    W2 m ρ c (Proc.devRef .tc main_arg5) = m ((c : Thread nD τ).loc main_arg5) :=
  (W2_of_ne m ρ c main_arg5 (by decide)).trans (Between.first_keeps (W0 m ρ c)).2.2.1

/-- The first region's first result: the out-scaled features times the outgoing hop matrices side by side. -/
theorem found_out (c : Dev nD) :
    (W2 m ρ c (Proc.devRef .tc main_v30_0) : S100000x128.Idx → EReal)
      = product (scaled (F := Ideal) (m ((c : Thread nD τ).loc main_arg2)) (m ((c : Thread nD τ).loc main_arg0)))
          (concatenate S64x128 1 [⟨S64x64, hopMatrix0 (F := Ideal) (m ((c : Thread nD τ).loc main_arg6))⟩, ⟨S64x64, hopMatrix1 (F := Ideal) (m ((c : Thread nD τ).loc main_arg6))⟩]
            Facts₀.concatenates_S64x64_S64x64_S64x128_d1) := by
  refine ((W2_arr m ρ c 4).trans (Transform.final_out (V1 m ρ) c)).trans ?_
  show product (V1 m ρ c main_v16 : S100000x64.Idx → EReal) (V1 m ρ c main_v24 : S64x128.Idx → EReal) = _
  rw [entry_scaled_out, entry_matrices_out]

/-- The first region's second result: the in-scaled features times the incoming hop matrices side by side. -/
theorem found_in (c : Dev nD) :
    (W2 m ρ c (Proc.devRef .tc main_v30_1) : S100000x128.Idx → EReal)
      = product (scaled (F := Ideal) (m ((c : Thread nD τ).loc main_arg3)) (m ((c : Thread nD τ).loc main_arg0)))
          (concatenate S64x128 1 [⟨S64x64, hopMatrix0 (F := Ideal) (m ((c : Thread nD τ).loc main_arg7))⟩, ⟨S64x64, hopMatrix1 (F := Ideal) (m ((c : Thread nD τ).loc main_arg7))⟩]
            Facts₀.concatenates_S64x64_S64x64_S64x128_d1) := by
  refine ((W2_arr m ρ c 5).trans (Transform.final_in (V1 m ρ) c)).trans ?_
  show product (V1 m ρ c main_v19 : S100000x64.Idx → EReal) (V1 m ρ c main_v29 : S64x128.Idx → EReal) = _
  rw [entry_scaled_in, entry_matrices_in]

/-! ## What the second region finds -/

/-- The aggregate the second region reads is the specification's. -/
theorem entry_sum (c : Dev nD) :
    (V3 m ρ c main_v111 : S100000x64.Idx → EReal)
      = summed (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg6))
          (m ((c : Thread nD τ).loc main_arg7)) (m ((c : Thread nD τ).loc main_arg8)) := by
  refine (Between.second_aggregate (W2 m ρ c)).trans ?_
  rw [found_weights, found_values, found_edges, found_out, found_in]
  rw [left_cols_product _ _ _ Facts₀.concatenates_S64x64_S64x64_S64x128_d1 Facts₀.slices_S100000x128_S100000x64_0_0 rfl,
    left_cols_product _ _ _ Facts₀.concatenates_S64x64_S64x64_S64x128_d1 Facts₀.slices_S100000x128_S100000x64_0_0 rfl,
    right_cols_product _ _ _ Facts₀.concatenates_S64x64_S64x64_S64x128_d1 Facts₀.slices_S100000x128_S100000x64_0_64 rfl,
    right_cols_product _ _ _ Facts₀.concatenates_S64x64_S64x64_S64x128_d1 Facts₀.slices_S100000x128_S100000x64_0_64 rfl]
  rfl

theorem entry_features (c : Dev nD) :
    V3 m ρ c main_arg0 = m ((c : Thread nD τ).loc main_arg0) :=
  (Between.second_keeps (W2 m ρ c)).1.trans (found_features m ρ c)

theorem entry_projection (c : Dev nD) :
    V3 m ρ c main_arg5 = m ((c : Thread nD τ).loc main_arg5) :=
  (Between.second_keeps (W2 m ρ c)).2.trans (found_projection m ρ c)

/-! ## The result -/

/-- What the result buffer holds at the last boundary is the specification's function of the launch contents. -/
theorem boundary_result (c : Dev nD) :
    (W4 m ρ c (Proc.devRef .tc main_v112) : S100000x64.Idx → EReal)
      = spec (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) := by
  refine ((W4_arr m ρ c 3).trans (Projection.final_result (V3 m ρ) c)).trans ?_
  show squash (V3 m ρ c main_v111 : S100000x64.Idx → EReal) (V3 m ρ c main_arg5 : S64x64.Idx → EReal)
      (V3 m ρ c main_arg0 : S100000x64.Idx → EReal) = _
  rw [entry_sum, entry_features, entry_projection]
  rfl

/-- THE RUN: every weakly fair execution terminates, nothing faulting, with the result array at the specification's
    function of the arguments and the arguments unchanged. -/
theorem run : θ_run defs (onTc (τ := τ) (main (F := Ideal))) ⟨m, fun _ => 0, ρ⟩ (fun r => ∀ c : Dev nD,
      r.2.mem ((c.tc : Thread nD τ).loc main_v112)
        = spec (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (boundary_result m ρ c), (h c).2⟩) (Whole.run_boundary m ρ)

end Cert.KernelIdeal.Result

end
-- ==== Proof.RefValue.lean ====
/-
  The reference program's result as the specification's function of its argument arrays.

  The reference is one straight line of host operations. Its result is, in the host's operations,
  `1 / (1 + exp (−(S · Θ))) + H` (`squashHost`), with `S` the aggregate over both hops of the four transformed feature
  matrices `(max(d, ε) ∘ H) · θ[k]`, each ONE matrix product against one `[64, 64]` hop matrix (`transformed`): this is
  the composed term of the reference's operations, read off as written. On the extended reals the host's matrix product
  is the sum over the contracted coordinate, the constant `1.0` is the real one, and the logistic function IS
  `1 / (1 + exp (−x))` with the host's division, exponential and negation; so the result is the specification.
-/
import proofs.«169103_j17162689315366_1_alg».proof.Proof.Gen.ReferenceIdeal.Run
import proofs.«169103_j17162689315366_1_alg».proof.Proof.Spec
import Idealize.ShloMosaic.Lib.IdealHost

set_option maxRecDepth 16384

noncomputable section

open Idealize.ShloMosaic Idealize.ShloMosaic.TcCoe Idealize.SL.Sem

namespace Cert.ReferenceIdeal.RefValue

open Cert.ReferenceIdeal Cert.ReferenceIdeal.Value Cert.LibProduct

variable {F : FTy → Type} [FloatOps F]

/-- `1 / (1 + exp (−(S · Θ))) + H`, in the host's operations. -/
def squashHost (S : FVec F S100000x64 .f32) (Θ : FVec F S64x64 .f32) (H : FVec F S100000x64 .f32) : FVec F S100000x64 .f32 :=
  addf (Host.divf (broadcastInDim S100000x64 ![] Facts₀.bcast_S_S100000x64 (constant S_ .f32 0x3F800000#32))
      (addf (broadcastInDim S100000x64 ![] Facts₀.bcast_S_S100000x64 (constant S_ .f32 0x3F800000#32))
        (Host.exp (Host.negf (Host.dotGeneral dot_S100000x64_S64x64_S100000x64_1_0_0_1_n_n none S Θ))))) H

/-- The degree-scaled features times one hop matrix, as the host computes it. -/
def transformed (d : FVec F S100000 .f32) (H : FVec F S100000x64 .f32) (θ : FVec F S64x64 .f32) : FVec F S100000x64 .f32 :=
  Host.dotGeneral dot_S100000x64_S64x64_S100000x64_1_0_0_1_n_n none (Cert.KernelIdeal.Hops.scaled d H) θ

set_option maxHeartbeats 4000000 in
/-- The composed term of the reference's operations, with its pieces named. -/
theorem result_shape (m : (ℓ : Loc nD τ sig) → Buf (Elt F) ℓ) (c : Dev nD) :
    res_main_v120 (F := F) m c
      = squashHost
          (Cert.KernelIdeal.Hops.aggregate
            (Cert.KernelIdeal.Hops.hopWeights (m ((c.tc : Thread nD τ).loc main_arg4)))
            (m ((c.tc : Thread nD τ).loc main_arg1)) (m ((c.tc : Thread nD τ).loc main_arg8))
            (transformed (m ((c.tc : Thread nD τ).loc main_arg2)) (m ((c.tc : Thread nD τ).loc main_arg0))
              (Cert.KernelIdeal.Hops.hopMatrix0 (m ((c.tc : Thread nD τ).loc main_arg6))))
            (transformed (m ((c.tc : Thread nD τ).loc main_arg3)) (m ((c.tc : Thread nD τ).loc main_arg0))
              (Cert.KernelIdeal.Hops.hopMatrix0 (m ((c.tc : Thread nD τ).loc main_arg7))))
            (transformed (m ((c.tc : Thread nD τ).loc main_arg2)) (m ((c.tc : Thread nD τ).loc main_arg0))
              (Cert.KernelIdeal.Hops.hopMatrix1 (m ((c.tc : Thread nD τ).loc main_arg6))))
            (transformed (m ((c.tc : Thread nD τ).loc main_arg3)) (m ((c.tc : Thread nD τ).loc main_arg0))
              (Cert.KernelIdeal.Hops.hopMatrix1 (m ((c.tc : Thread nD τ).loc main_arg7)))))
          (m ((c.tc : Thread nD τ).loc main_arg5)) (m ((c.tc : Thread nD τ).loc main_arg0)) := by
  unfold res_main_v120
  rfl

/-- The host's product of the scaled features with a hop matrix is the matrix product. -/
theorem transformed_eq (d : FVec Ideal S100000 .f32) (H : FVec Ideal S100000x64 .f32) (θ : FVec Ideal S64x64 .f32) :
    transformed d H θ = product (Cert.KernelIdeal.Hops.scaled d H) θ :=
  dotGeneral_eq _ none .single _ θ

/-- The host's spelling of the last step is the logistic function of the product, plus `H`. -/
theorem squashHost_eq (S : FVec Ideal S100000x64 .f32) (Θ : FVec Ideal S64x64 .f32) (H : FVec Ideal S100000x64 .f32) :
    squashHost S Θ H = Cert.KernelIdeal.Spec.squash S Θ H := by
  funext i
  have hone : broadcastInDim S100000x64 ![] Facts₀.bcast_S_S100000x64 (constant (F := Ideal) S_ .f32 0x3F800000#32) i = (1 : EReal) :=
    (ValueIdx.broadcastInDim_scalar_apply _ _ i).trans Ideal.ofBits_one_f32
  have hd : Host.dotGeneral dot_S100000x64_S64x64_S100000x64_1_0_0_1_n_n none S Θ i = product S Θ i :=
    congrFun (dotGeneral_eq _ none .single S Θ) i
  show FloatOps.addf (F := Ideal) (φ := .f32)
      (FloatOps.hostDivf (F := Ideal) (φ := .f32)
        (broadcastInDim S100000x64 ![] Facts₀.bcast_S_S100000x64 (constant (F := Ideal) S_ .f32 0x3F800000#32) i)
        (FloatOps.addf (F := Ideal) (φ := .f32)
          (broadcastInDim S100000x64 ![] Facts₀.bcast_S_S100000x64 (constant (F := Ideal) S_ .f32 0x3F800000#32) i)
          (FloatOps.hostUnary (F := Ideal) (φ := .f32) .exp (FloatOps.hostNegf (F := Ideal) (φ := .f32)
            (Host.dotGeneral dot_S100000x64_S64x64_S100000x64_1_0_0_1_n_n none S Θ i))))) (H i) = _
  rw [hone, hd]
  rfl

/-- THE REFERENCE'S RESULT is the specification's function of its arguments. -/
theorem result_eq (m : (ℓ : Loc nD τ sig) → Buf (Elt Ideal) ℓ) (c : Dev nD) :
    res_main_v120 (F := Ideal) m c
      = Cert.KernelIdeal.Spec.spec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [result_shape, squashHost_eq, transformed_eq, transformed_eq, transformed_eq, transformed_eq]
  rfl

end Cert.ReferenceIdeal.RefValue

end
-- ==== Proof.lean ====
/-
  The certificate: a two-region graph message-passing kernel against its plain reference, on the extended reals.

  Both programs compute (`Spec.spec`)

      logistic ( ( Σ_k softmax(a)_k · ( A_k · ((max(d_out, ε) ∘ H) · θ_out[k]) + A_kᵀ · ((max(d_in, ε) ∘ H) · θ_in[k]) ) ) · Θ ) + H.

  The reference forms each of the four transformed feature matrices by ONE matrix product with one `[64, 64]` hop matrix.
  The kernel joins the two outgoing hop matrices side by side into a `[64, 128]` matrix (and the two incoming ones
  likewise), multiplies once per direction in its first kernel region, row block by row block, and takes the two column
  halves of each product afterwards. A column of a product reads one column of the right factor, so the halves ARE the
  single products: the same sums, term for term. Everything between — the softmax of the hop weights, the gathers and
  scatter-adds over the edges, the weighted sum over the hops — is the same chain of operations in both programs. The
  last step is `logistic (S · Θ) + H`: the kernel's second region computes it row block by row block with the logistic
  function, the reference as `1 / (1 + exp (−x))`, which is the logistic function on the extended reals. Rounding of a
  product's factors to a shorter format is the identity there. No finiteness of the inputs is used: only which entries
  each sum reads.

  The frames: the two kernel programs' are the frame runs of their two regions among the host stretches; the
  reference's is its straight-line run with the result dropped. No operation was rewritten when the kernel was idealized,
  so that claim is trivial.
-/
import proofs.«169103_j17162689315366_1_alg».proof.Defs
import proofs.«169103_j17162689315366_1_alg».proof.Proof.Gen.Kernel
import proofs.«169103_j17162689315366_1_alg».proof.Proof.Gen.Kernel.Skeleton
import proofs.«169103_j17162689315366_1_alg».proof.Proof.Gen.Kernel.Launch
import proofs.«169103_j17162689315366_1_alg».proof.Proof.Gen.Kernel.Points
import proofs.«169103_j17162689315366_1_alg».proof.Proof.Gen.Kernel.Frame
import proofs.«169103_j17162689315366_1_alg».proof.Proof.Gen.KernelIdeal
import proofs.«169103_j17162689315366_1_alg».proof.Proof.Gen.KernelIdeal.Skeleton
import proofs.«169103_j17162689315366_1_alg».proof.Proof.Gen.KernelIdeal.Launch
import proofs.«169103_j17162689315366_1_alg».proof.Proof.Gen.KernelIdeal.Points
import proofs.«169103_j17162689315366_1_alg».proof.Proof.Gen.KernelIdeal.Frame
import proofs.«169103_j17162689315366_1_alg».proof.Proof.Gen.ReferenceIdeal
import proofs.«169103_j17162689315366_1_alg».proof.Proof.Gen.Pre_finite_inputs
import proofs.«169103_j17162689315366_1_alg».proof.Proof.Gen.ReferenceIdeal.Run
import proofs.«169103_j17162689315366_1_alg».proof.Proof.KernelValue
import proofs.«169103_j17162689315366_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's function of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq m' c]
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
